-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8192 : Shape := ⟨3, ![16, 64, 8192]⟩
abbrev S16x8192x64 : Shape := ⟨3, ![16, 8192, 64]⟩
abbrev S_ : Shape := ⟨0, ![]⟩

class Facts : Prop where
  bcast_S_S16x64x8192 : S_.BroadcastsInDim S16x64x8192 (![] : Fin 0 → Fin S16x64x8192.rank)
  reducesTo_S16x64x8192_S_d0_1_2 : S16x64x8192.ReducesTo [0, 1, 2] S_
  h_S_ : 0 < S_.numel
  bcast_S_S16x8192x64 : S_.BroadcastsInDim S16x8192x64 (![] : Fin 0 → Fin S16x8192x64.rank)
  reducesTo_S16x8192x64_S_d0_1_2 : S16x8192x64.ReducesTo [0, 1, 2] S_

variable [Facts]

def fn {F : FTy → Type} [FloatOps F] (main_arg0 : FVec F S16x64x8192 .f32) (main_arg1 : FVec F S16x8192x64 .f32) (main_arg2 : FVec F S16x8192x64 .f32) : IVec S_ 1 :=
  let main_v0 : FVec F S16x64x8192 .f32 := Host.absf main_arg0
  let main_cst : FVec F S_ .f32 := constant S_ .f32 0x7F800000#32
  let main_v1 : FVec F S16x64x8192 .f32 := broadcastInDim S16x64x8192 ![] bcast_S_S16x64x8192 main_cst
  let main_v2 : IVec S16x64x8192 1 := cmpf .olt main_v0 main_v1
  let main_c : IVec S_ 1 := constantI S_ 1 1#1
  let main_v3 : IVec S_ 1 := (fun x v => Host.reduce IntOp.andi x v reducesTo_S16x64x8192_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  main_v13
-- ==== Kernel.lean ====
abbrev S16x64x8192 : Shape := ⟨3, ![16, 64, 8192]⟩
abbrev S16x8192x64 : Shape := ⟨3, ![16, 8192, 64]⟩
abbrev S16x4096x128 : Shape := ⟨3, ![16, 4096, 128]⟩
abbrev S1x64x8192 : Shape := ⟨3, ![1, 64, 8192]⟩
abbrev S1x4096x128 : Shape := ⟨3, ![1, 4096, 128]⟩
abbrev S1x8192x64 : Shape := ⟨3, ![1, 8192, 64]⟩
abbrev S4096x128 : Shape := ⟨2, ![4096, 128]⟩
abbrev S128x128 : Shape := ⟨2, ![128, 128]⟩
abbrev S64x64 : Shape := ⟨2, ![64, 64]⟩
abbrev S64x8192 : Shape := ⟨2, ![64, 8192]⟩
abbrev S8192x64 : Shape := ⟨2, ![8192, 64]⟩

abbrev nBuf : Space → Nat
  | .hbm => 6
  | .vmem => 8
  | .smem => 0
  | _ => 0

abbrev bufTy : (tb : Table) → Fin (tcTables nBuf tb) → BufTy
  | .hbm, ⟨0, _⟩ => ⟨S16x64x8192, .f32⟩
  | .hbm, ⟨1, _⟩ => ⟨S16x8192x64, .f32⟩
  | .hbm, ⟨2, _⟩ => ⟨S16x8192x64, .f32⟩
  | .hbm, ⟨3, _⟩ => ⟨S16x4096x128, .f32⟩
  | .hbm, ⟨4, _⟩ => ⟨S16x4096x128, .f32⟩
  | .hbm, ⟨5, _⟩ => ⟨S16x8192x64, .f32⟩
  | .local _ .vmem, ⟨0, _⟩ => ⟨S1x64x8192, .f32⟩
  | .local _ .vmem, ⟨1, _⟩ => ⟨S1x64x8192, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8192x64, .f32⟩
  | .local _ .vmem, ⟨7, _⟩ => ⟨S1x8192x64, .f32⟩
  | _, _ => ⟨S16x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x64_S16x4096x128 : S16x8192x64.ShapeCasts S16x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  slices_S128x128_o0_0_S64x64 : S128x128.Slices ![0, 0] S64x64
  slices_S128x128_o64_64_S64x64 : S128x128.Slices ![64, 64] S64x64
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  dot_S4096x128_S4096x128_S128x128_0_0_1_1_n_n_wf : DotDims.WF S4096x128 S4096x128 S128x128 [0] [0] [1] [1] [] []
  dot_S64x8192_S64x64_S8192x64_0_0_1_1_n_n_wf : DotDims.WF S64x8192 S64x64 S8192x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S16x64x8192.size a
  hwx0_0 : ∀ i : grid0.Coords, EltTy.bits .f32 = 32 ∨ (Rect.block (s := S16x64x8192) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .f32 = 32 ∨ (Rect.block (s := S16x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S16x4096x128.size a
  hwx0_2 : ∀ i : grid0.Coords, EltTy.bits .f32 = 32 ∨ (Rect.block (s := S16x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x64.size a ≤ S16x8192x64.size a
  hwx0_3 : ∀ i : grid0.Coords, EltTy.bits .f32 = 32 ∨ (Rect.block (s := S16x8192x64) S1x8192x64.size (cc0_transform_3 i) (hinb0_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf

abbrev win0_0 : Pipeline.Window sig grid0 :=
  Pipeline.Window.ofSpec (Memref.whole main_arg0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x8192 : Shape := ⟨3, ![16, 64, 8192]⟩
abbrev S16x8192x64 : Shape := ⟨3, ![16, 8192, 64]⟩
abbrev S16x64x64 : Shape := ⟨3, ![16, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S16x64x8192, .f32⟩
  | .hbm, ⟨1, _⟩ => ⟨S16x8192x64, .f32⟩
  | .hbm, ⟨2, _⟩ => ⟨S16x8192x64, .f32⟩
  | .hbm, ⟨3, _⟩ => ⟨S16x64x64, .f32⟩
  | .hbm, ⟨4, _⟩ => ⟨S16x8192x64, .f32⟩
  | _, _ => ⟨S16x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16x8192x64_S16x8192x64_S16x64x64_1_1_2_2_0_0_wf : DotDims.WF S16x8192x64 S16x8192x64 S16x64x64 [1] [1] [2] [2] [0] [0]
  dot_S16x64x8192_S16x64x64_S16x8192x64_1_1_2_2_0_0_wf : DotDims.WF S16x64x8192 S16x64x64 S16x8192x64 [1] [1] [2] [2] [0] [0]

variable [Facts₀]

def dot_S16x8192x64_S16x8192x64_S16x64x64_1_1_2_2_0_0 : DotDims S16x8192x64 S16x8192x64 S16x64x64 where
  lhsContracting := [1]
  rhsContracting := [1]
  lhsNonContracting := [2]
  rhsNonContracting := [2]
  lhsBatch := [0]
  rhsBatch := [0]
  wf := dot_S16x8192x64_S16x8192x64_S16x64x64_1_1_2_2_0_0_wf
def dot_S16x64x8192_S16x64x64_S16x8192x64_1_1_2_2_0_0 : DotDims S16x64x8192 S16x64x64 S16x8192x64 where
  lhsContracting := [1]
  rhsContracting := [1]
  lhsNonContracting := [2]
  rhsNonContracting := [2]
  lhsBatch := [0]
  rhsBatch := [0]
  wf := dot_S16x64x8192_S16x64x64_S16x8192x64_1_1_2_2_0_0_wf

class Facts : Prop extends Facts₀ where

variable [Facts]
-- ==== Proof.Spec.lean ====
/-
  The function both programs compute, and the two facts about index arithmetic that join them.

  Linear attention without a softmax: for each batch b,
      out[b, n, c] = ∑ₐ q[b, a, n] · ( ∑ₙ' k[b, n', a] · v[b, n', c] ),
  with q channel-first ([16, 64, 8192]) and k, v row-first ([16, 8192, 64]).

  One side forms the inner sum over all 8192 rows at once. The other views k and v as [16, 4096, 128] —
  row n₂ of the view is rows 2n₂ and 2n₂+1 of the original laid side by side — multiplies the two views
  into a 128×128 matrix and adds its two diagonal 64×64 blocks: the first block is the inner sum over the
  even rows, the second over the odd rows. A sum over 8192 rows is the sum over the even rows plus the sum
  over the odd rows by commutativity and associativity of + alone, so nothing here needs the values to be
  finite.
-/
import Idealize.ShloMosaic.Lib.ValueIdx
import Idealize.ShloMosaic.Lib.Pipeline.Value
import Idealize.ShloMosaic.PureOps.Ideal

noncomputable section

open Idealize.ShloMosaic Idealize.ShloMosaic.ValueIdx
open scoped BigOperators

namespace Cert.LinAttn.Spec

/-- out[b, n, c] = ∑ₐ q[b, a, n] · ∑ₙ' k[b, n', a] · v[b, n', c], on the extended reals. -/
def attn (q : (⟨3, ![16, 64, 8192]⟩ : Shape).Idx → EReal) (k v : (⟨3, ![16, 8192, 64]⟩ : Shape).Idx → EReal) :
    (⟨3, ![16, 8192, 64]⟩ : Shape).Idx → EReal :=
  fun i => ∑ a : Fin 64, q (ix3 (i 0 : Fin 16) a (i 1 : Fin 8192))
    * ∑ n : Fin 8192, k (ix3 (i 0 : Fin 16) n a) * v (ix3 (i 0 : Fin 16) n (i 2 : Fin 64))

/-- A sum over 2H consecutive positions is the sum over the even positions plus the sum over the odd ones. -/
theorem sum_even_odd {M : Type} [AddCommMonoid M] {H : Nat} (f : Fin (H * 2) → M) :
    ∑ n, f n = (∑ h : Fin H, f ⟨2 * h.val, by omega⟩) + ∑ h : Fin H, f ⟨2 * h.val + 1, by omega⟩ := by
  rw [← Equiv.sum_comp finProdFinEquiv f, Fintype.sum_prod_type, ← Finset.sum_add_distrib]
  refine Finset.sum_congr rfl fun h _ => ?_
  rw [Fin.sum_univ_two]
  congr 1 <;> congr 1 <;> apply Fin.ext <;> simp [finProdFinEquiv] <;> omega

/-- The [16, 8192, 64] array viewed as [16, 4096, 128] in row-major order: entry (b, n₂, i) of the view is
    entry (b, 2n₂ + i / 64, i mod 64) of the original — columns 0…63 of view row n₂ are original row 2n₂,
    columns 64…127 are original row 2n₂ + 1. -/
theorem pair_rows_apply {α : Type} (x : (⟨3, ![16, 8192, 64]⟩ : Shape).Idx → α)
    (h : (⟨3, ![16, 8192, 64]⟩ : Shape).ShapeCasts ⟨3, ![16, 4096, 128]⟩) (b : Fin 16) (n2 : Fin 4096) (i : Fin 128) :
    shapeCast ⟨3, ![16, 4096, 128]⟩ x h (ix3 b n2 i)
      = x (ix3 b (⟨2 * n2.val + i.val / 64, by omega⟩ : Fin 8192) (⟨i.val % 64, by omega⟩ : Fin 64)) := by
  refine shapeCast_apply x h _ _ ?_
  rw [Shape.rowMajor_val_three, Shape.rowMajor_val_three]
  show (b.val * 8192 + (2 * n2.val + i.val / 64)) * 64 + i.val % 64 = (b.val * 4096 + n2.val) * 128 + i.val
  omega

end Cert.LinAttn.Spec

end
-- ==== Proof.RefValue.lean ====
/-
  The reference's result, index by index, is the specification: its two batched products are
  ktv[b, a, c] = ∑ₙ k[b, n, a] · v[b, n, c] and out[b, n, c] = ∑ₐ q[b, a, n] · ktv[b, a, c].
-/
import proofs.«103025_j2130303779058_2_alg».proof.Proof.Gen.ReferenceIdeal.Read
import proofs.«103025_j2130303779058_2_alg».proof.Proof.Spec

noncomputable section

open Idealize.ShloMosaic Idealize.ShloMosaic.ValueIdx
open scoped BigOperators

namespace Cert.LinAttn.RefValue

open Cert.ReferenceIdeal Cert.ReferenceIdeal.Read Cert.LinAttn.Spec

/-- The second product's operand indices at output index i and contraction index a:
    q is read at (i₀, a, i₁), the first product at (i₀, a, i₂). -/
theorem lidx_out (i : S16x8192x64.Idx) (a : Fin 64) :
    lidx_main_v1 i a = ix3 (i 0 : Fin 16) a (i 1 : Fin 8192) :=
  funext fun d => by match d with | ⟨0, _⟩ => rfl | ⟨1, _⟩ => rfl | ⟨2, _⟩ => rfl

/-- The first product's operand indices under the second's right index: k at (i₀, n, a), v at (i₀, n, i₂). -/
theorem lidx_inner (i : S16x8192x64.Idx) (a : Fin 64) (n : Fin 8192) :
    lidx_main_v0 (ridx_main_v1 i a) n = ix3 (i 0 : Fin 16) n a :=
  funext fun d => by match d with | ⟨0, _⟩ => rfl | ⟨1, _⟩ => rfl | ⟨2, _⟩ => rfl

theorem ridx_inner (i : S16x8192x64.Idx) (a : Fin 64) (n : Fin 8192) :
    ridx_main_v0 (ridx_main_v1 i a) n = ix3 (i 0 : Fin 16) n (i 2 : Fin 64) :=
  funext fun d => by match d with | ⟨0, _⟩ => rfl | ⟨1, _⟩ => rfl | ⟨2, _⟩ => rfl

/-- The reference's last stage is the specification of the three argument arrays. -/
theorem ref_eq (x0 : (⟨S16x64x8192, .f32⟩ : BufTy).Contents (Elt Ideal)) (x1 x2 : (⟨S16x8192x64, .f32⟩ : BufTy).Contents (Elt Ideal)) :
    val_main_v1 (F := Ideal) x0 x1 x2 = attn x0 x1 x2 := by
  funext i
  rw [val_main_v1_apply]
  unfold attn
  refine Finset.sum_congr rfl fun a _ => ?_
  rw [val_main_v0_apply, lidx_out]
  refine congrArg (x0 _ * ·) (Finset.sum_congr rfl fun n _ => ?_)
  exact congrArg₂ (· * ·) (congrArg x1 (lidx_inner i a n)) (congrArg x2 (ridx_inner i a n))

end Cert.LinAttn.RefValue

end
-- ==== Proof.LibMatmulT.lean ====
/-
  A matrix product whose LEFT operand is contracted on its first axis: K×M by K×N gives M×N,
  out (p, q) = ∑ k, l (k, p) · r (k, q)   (the product lᵀ · r).
  The dimension numbers are ([0], [0], [1], [1], no batch axis); the lemma rewrites the contraction sum
  over the record's own index type into the plain sum over `Fin K`, for any sizes and any values with a
  product and a commutative sum.
-/
import Idealize.ShloMosaic.Lib.ValueIdx
import Idealize.ShloMosaic.PureOps.Ideal.Laws

noncomputable section

open Idealize.ShloMosaic Idealize.ShloMosaic.ValueIdx
open scoped BigOperators

namespace Cert.Layer.MatmulT

variable {K M N : Nat} {R : Type} [AddCommMonoid R] [Mul R]

/-- The contraction shape has one axis. -/
theorem contr_rank (d : DotDims ⟨2, ![K, M]⟩ ⟨2, ![K, N]⟩ ⟨2, ![M, N]⟩) (hlc : d.lhsContracting = [0]) :
    d.contr.rank = 1 := by
  rw [d.rank_contr, hlc]; rfl

/-- Its extent is the left operand's first extent, K. -/
theorem contr_size (d : DotDims ⟨2, ![K, M]⟩ ⟨2, ![K, N]⟩ ⟨2, ![M, N]⟩) (hlc : d.lhsContracting = [0]) :
    d.contr.size ⟨0, by rw [contr_rank d hlc]; exact Nat.one_pos⟩ = K := by
  rw [d.size_contr 0 (by rw [hlc]; exact Nat.one_pos)]
  simp [hlc]

/-- The left operand's kept axis (its second) reads the output's first coordinate. -/
theorem lhs_kept (d : DotDims ⟨2, ![K, M]⟩ ⟨2, ![K, N]⟩ ⟨2, ![M, N]⟩)
    (hln : d.lhsNonContracting = [1]) (hlb : d.lhsBatch = [])
    (j : (⟨2, ![M, N]⟩ : Shape).Idx) (q : d.contr.Idx) : (d.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln])

/-- The right operand's kept axis (its second) reads the output's second coordinate. -/
theorem rhs_kept (d : DotDims ⟨2, ![K, M]⟩ ⟨2, ![K, N]⟩ ⟨2, ![M, N]⟩)
    (hln : d.lhsNonContracting = [1]) (hrn : d.rhsNonContracting = [1])
    (hlb : d.lhsBatch = []) (hrb : d.rhsBatch = [])
    (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln, hrn])

/-- THE SUM: over the record's contraction indices, the left operand at `lhsIdx` times the right at `rhsIdx`
    is ∑ k : Fin K, l (k, j₀) · r (k, j₁). Both a `tpu.matmul` into a zero accumulator and a host
    `dot_general` read as the left-hand sum at the exact instance. -/
theorem tlhs_contr_sum (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → R) (r : (⟨2, ![K, N]⟩ : Shape).Idx → R) (j : (⟨2, ![M, N]⟩ : Shape).Idx) :
    ∑ k : d.contr.Idx, l (d.lhsIdx j k) * r (d.rhsIdx j k) = ∑ k : Fin K, l (ix2 k (j 0)) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 k (j 0) :=
    funext fun a => Fin.ext (by
      match a with
      | ⟨0, _⟩ => exact (d.lhsIdx_val_of_single hlc _ _).trans hk
      | ⟨1, _⟩ => exact lhs_kept d hln hlb _ _)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhs_kept d hln hrn hlb hrb _ _)
  exact congrArg₂ (· * ·) (congrArg l el) (congrArg r er)

end Cert.Layer.MatmulT

end
-- ==== Proof.LibUnitBatch.lean ====
/-
  A leading axis of extent one, dropped or added: a [1, A, B] block viewed as the [A, B] matrix reads
  (0, a, b) at (a, b), and an [A, B] matrix viewed as a [1, A, B] block reads (a, b) at (0, a, b). For any A, B
  and any element type.
-/
import Idealize.ShloMosaic.Lib.ValueIdx
import Idealize.ShloMosaic.Lib.Pipeline.Value

noncomputable section

open Idealize.ShloMosaic Idealize.ShloMosaic.ValueIdx

namespace Cert.Layer.UnitBatch

variable {α : Type} {A B : Nat}

/-- The one position on an axis of extent one. -/
abbrev z1 : Fin 1 := ⟨0, Nat.one_pos⟩

/-- [1, A, B] viewed as [A, B], read at (a, b): the block at (0, a, b). -/
theorem unbatch_apply (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 z1 a b) := by
  refine (shapeCast_dropUnit_apply ![A, B] x h (ix2 a b)).trans (congrArg x ?_)
  funext d; match d with | ⟨0, _⟩ => rfl | ⟨1, _⟩ => rfl | ⟨2, _⟩ => rfl

/-- [A, B] viewed as [1, A, B], read at (z, a, b): the matrix at (a, b). -/
theorem batch_apply (x : (⟨2, ![A, B]⟩ : Shape).Idx → α)
    (h : (⟨2, ![A, B]⟩ : Shape).ShapeCasts ⟨3, ![1, A, B]⟩) (z : Fin 1) (a : Fin A) (b : Fin B) :
    shapeCast ⟨3, ![1, A, B]⟩ x h (ix3 z a b) = x (ix2 a b) := by
  refine (shapeCast_addUnit_apply ![A, B] x h (ix3 z a b)).trans (congrArg x ?_)
  funext d; match d with | ⟨0, _⟩ => rfl | ⟨1, _⟩ => rfl

end Cert.Layer.UnitBatch

end
-- ==== Proof.Payload.lean ====
/-
  What one grid point stores, entry by entry, from the three blocks it loads.

  The body loads the paired-row blocks k₂, v₂ : [1, 4096, 128] and the block q : [1, 64, 8192]. It forms
  s = k₂ᵀ · v₂ (128×128, a sum over the 4096 paired rows), adds the two diagonal 64×64 blocks of s,
      w[a, c] = s[a, c] + s[64 + a, 64 + c],
  and stores qᵀ · w : out[n, c] = ∑ₐ q[a, n] · w[a, c]. Rounding to the short float format is the
  identity on exact values.

  If column i of paired row n₂ is entry (2n₂ + i / 64, i mod 64) of the batch's [8192, 64] array — columns
  below 64 the even row 2n₂, columns from 64 on the odd row 2n₂ + 1 — then s[a, c] is the even rows' share
  of ∑ₙ k[n, a] · v[n, c] and s[64 + a, 64 + c] the odd rows' share, so w is the whole sum and the stored
  entry is the specification's.
-/
import proofs.«103025_j2130303779058_2_alg».proof.Proof.Gen.KernelIdeal.Skeleton
import proofs.«103025_j2130303779058_2_alg».proof.Proof.Spec
import proofs.«103025_j2130303779058_2_alg».proof.Proof.LibMatmulT
import proofs.«103025_j2130303779058_2_alg».proof.Proof.LibUnitBatch
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.LinAttn.Payload

open Cert.KernelIdeal Cert.KernelIdeal.Gen Cert.LinAttn.Spec Cert.Layer.MatmulT Cert.Layer.UnitBatch

/-- s = k₂ᵀ · v₂ at (p, r): the sum over the 4096 paired rows of k₂[n₂, p] · v₂[n₂, r]. -/
theorem gram_apply (x1 x2 : Vec Ideal S1x4096x128 .f32) (p r : Fin 128) :
    (matmul (F := Ideal) dot_S4096x128_S4096x128_S128x128_0_0_1_1_n_n none
      (truncf .bf16 (shapeCast S4096x128 x1 shapeCasts_S1x4096x128_S4096x128) bitsLt_bf16_f32)
      (truncf .bf16 (shapeCast S4096x128 x2 shapeCasts_S1x4096x128_S4096x128) bitsLt_bf16_f32)
      (constant S128x128 .f32 0x00000000#32)) (ix2 p r)
    = ∑ n2 : Fin 4096, x1 (ix3 z1 n2 p) * x2 (ix3 z1 n2 r) := by
  refine (Ideal.matmul_constant_zero_apply _ none _ _ _).trans ?_
  refine (tlhs_contr_sum _ rfl rfl rfl rfl rfl rfl _ _ _).trans ?_
  refine Finset.sum_congr rfl fun n2 _ => ?_
  rw [truncf_apply, truncf_apply, unbatch_apply, unbatch_apply]

/-- The sum of the two diagonal 64×64 blocks of a 128×128 matrix, at (a, c). -/
theorem diag_blocks_apply (s : FVec Ideal S128x128 .f32) (a c : Fin 64) :
    (addf (extractStridedSlice S64x64 ![0, 0] s slices_S128x128_o0_0_S64x64)
      (extractStridedSlice S64x64 ![64, 64] s slices_S128x128_o64_64_S64x64)) (ix2 a c)
    = s (ix2 (⟨a.val, by omega⟩ : Fin 128) (⟨c.val, by omega⟩ : Fin 128))
      + s (ix2 (⟨64 + a.val, by omega⟩ : Fin 128) (⟨64 + c.val, by omega⟩ : Fin 128)) := by
  rw [addf_apply]
  refine congrArg₂ (· + ·) ?_ ?_
  · refine extractStridedSlice_apply _ _ _ _ _ fun d => ?_
    match d with
    | ⟨0, _⟩ => show a.val = 0 + a.val; omega
    | ⟨1, _⟩ => show c.val = 0 + c.val; omega
  · refine extractStridedSlice_apply _ _ _ _ _ fun d => ?_
    match d with
    | ⟨0, _⟩ => rfl
    | ⟨1, _⟩ => rfl

/-- qᵀ · w at (n, c): the sum over the 64 channels of q[a, n] · w[a, c]. -/
theorem out_apply (x0 : Vec Ideal S1x64x8192 .f32) (w : FVec Ideal S64x64 .f32) (n : Fin 8192) (c : Fin 64) :
    (matmul (F := Ideal) dot_S64x8192_S64x64_S8192x64_0_0_1_1_n_n (some .fp32)
      (shapeCast S64x8192 x0 shapeCasts_S1x64x8192_S64x8192 : FVec Ideal S64x8192 .f32) w (constant S8192x64 .f32 0x00000000#32)) (ix2 n c)
    = ∑ a : Fin 64, x0 (ix3 z1 a n) * w (ix2 a c) := by
  refine (Ideal.matmul_constant_zero_apply _ (some .fp32) _ _ _).trans ?_
  refine (tlhs_contr_sum _ rfl rfl rfl rfl rfl rfl _ _ _).trans ?_
  refine Finset.sum_congr rfl fun a _ => ?_
  rw [unbatch_apply]

/-- THE STORED ENTRY. With the loaded blocks read as batch b of the argument arrays — q's block as is, each
    paired-row block's low 64 columns as the even rows and high 64 columns as the odd rows — entry (0, n, c) of
    what the point stores is the specification at (b, n, c). -/
theorem pay_at (q : (⟨3, ![16, 64, 8192]⟩ : Shape).Idx → EReal) (k v : (⟨3, ![16, 8192, 64]⟩ : Shape).Idx → EReal)
    (b : Fin 16) (x0 : Vec Ideal S1x64x8192 .f32) (x1 x2 : Vec Ideal S1x4096x128 .f32)
    (h0 : ∀ (a : Fin 64) (n : Fin 8192), x0 (ix3 z1 a n) = q (ix3 b a n))
    (h1e : ∀ (n2 : Fin 4096) (a : Fin 64),
      x1 (ix3 z1 n2 (⟨a.val, by omega⟩ : Fin 128)) = k (ix3 b (⟨2 * n2.val, by omega⟩ : Fin 8192) a))
    (h1o : ∀ (n2 : Fin 4096) (a : Fin 64),
      x1 (ix3 z1 n2 (⟨64 + a.val, by omega⟩ : Fin 128)) = k (ix3 b (⟨2 * n2.val + 1, by omega⟩ : Fin 8192) a))
    (h2e : ∀ (n2 : Fin 4096) (c : Fin 64),
      x2 (ix3 z1 n2 (⟨c.val, by omega⟩ : Fin 128)) = v (ix3 b (⟨2 * n2.val, by omega⟩ : Fin 8192) c))
    (h2o : ∀ (n2 : Fin 4096) (c : Fin 64),
      x2 (ix3 z1 n2 (⟨64 + c.val, by omega⟩ : Fin 128)) = v (ix3 b (⟨2 * n2.val + 1, by omega⟩ : Fin 8192) c))
    (z : Fin 1) (n : Fin 8192) (c : Fin 64) :
    k0_pay1 (F := Ideal) x1 x2 x0 (ix3 z n c) = attn q k v (ix3 b n c) := by
  unfold k0_pay1
  refine (batch_apply _ _ z n c).trans ?_
  refine (out_apply x0 _ n c).trans ?_
  show _ = ∑ a : Fin 64, q (ix3 b a n) * ∑ n' : Fin 8192, k (ix3 b n' a) * v (ix3 b n' c)
  refine Finset.sum_congr rfl fun a _ => ?_
  refine congrArg₂ (· * ·) (h0 a n) ?_
  refine (diag_blocks_apply _ a c).trans ?_
  rw [gram_apply, gram_apply]
  refine Eq.trans ?_ (sum_even_odd (H := 4096) fun n' => k (ix3 b n' a) * v (ix3 b n' c)).symm
  refine congrArg₂ (· + ·) (Finset.sum_congr rfl fun n2 _ => ?_) (Finset.sum_congr rfl fun n2 _ => ?_)
  · rw [h1e, h2e]
  · rw [h1o, h2o]

end Cert.LinAttn.Payload

end
-- ==== Proof.Blocks.lean ====
/-
  From one grid point's block to the whole result array.

  The grid has one point per batch: point t loads batch t of q, of the paired-row view of k and of the
  paired-row view of v, and writes batch t of the result. The two views are made before the launch by
  re-reading k and v ([16, 8192, 64]) as [16, 4096, 128] in row-major order. So every loaded block is a batch of an
  argument array, what the point stores is the specification restricted to that batch, the sixteen blocks
  cover the result array, and the array ends holding the specification.
-/
import proofs.«103025_j2130303779058_2_alg».proof.Proof.Gen.KernelIdeal.Value
import proofs.«103025_j2130303779058_2_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.LinAttn.Blocks

open Cert.KernelIdeal Cert.KernelIdeal.Gen Cert.LinAttn.Spec Cert.LinAttn.Payload Cert.Layer.UnitBatch

variable (m : (ℓ : Loc nD τ sig) → Buf (Elt Ideal) ℓ) (ρ : Dev nD → PrngReg)

theorem hz : (![0, 0, 0] : Fin 3 → Nat) = fun _ => 0 := funext fun a => by fin_cases a <;> rfl

/-- A grid point as a batch number. -/
def batch (t : Fin cfg0.N) : Fin 16 := ⟨t.val, lt_of_lt_of_eq t.isLt N_0⟩

/-- Every window's block index at point t is (t, 0, 0): decided over the sixteen points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The arrays the launch finds -/

/-- The first paired-row array is k re-read as [16, 4096, 128]. -/
theorem V_k2 (c : Dev nD) : (V m c main_v0 : S16x4096x128.Idx → EReal)
    = shapeCast S16x4096x128 (m ((c : Thread nD τ).loc main_arg1) : S16x8192x64.Idx → EReal) shapeCasts_S16x8192x64_S16x4096x128 := by
  dsimp only [Gen.V, Gen.hostOps0]; after_results; rfl

/-- The second is v re-read the same way. -/
theorem V_v2 (c : Dev nD) : (V m c main_v1 : S16x4096x128.Idx → EReal)
    = shapeCast S16x4096x128 (m ((c : Thread nD τ).loc main_arg2) : S16x8192x64.Idx → EReal) shapeCasts_S16x8192x64_S16x4096x128 := by
  dsimp only [Gen.V, Gen.hostOps0]; after_results; rfl

/-! ## The blocks a point loads -/

/-- q's block at point t is batch t of q. -/
theorem q_block (c : Dev nD) (t : Fin cfg0.N) (a : Fin 64) (n : Fin 8192) :
    (iblk m c 0 t : Vec Ideal S1x64x8192 .f32) (ix3 z1 a n)
      = (m ((c : Thread nD τ).loc main_arg0) : S16x64x8192.Idx → EReal) (ix3 (batch t) a n) := by
  obtain ⟨⟨e0, e1, e2⟩, -⟩ := idx_facts t
  unfold iblk
  rw [View.read_apply]
  show V m c main_arg0 _ = _
  rw [V_main_arg0]
  congr 1
  funext d; apply Fin.ext
  match d with
  | ⟨0, _⟩ => show win0_0.index t (0 : Fin 3) * 1 + 1 * 0 = t.val; omega
  | ⟨1, _⟩ => show win0_0.index t (1 : Fin 3) * 64 + 1 * a.val = a.val; omega
  | ⟨2, _⟩ => show win0_0.index t (2 : Fin 3) * 8192 + 1 * n.val = n.val; omega

/-- The first paired-row block at point t, column i of paired row n₂, is k at (t, 2n₂ + i / 64, i mod 64). -/
theorem k_block (c : Dev nD) (t : Fin cfg0.N) (n2 : Fin 4096) (i : Fin 128) :
    (iblk m c 1 t : Vec Ideal S1x4096x128 .f32) (ix3 z1 n2 i)
      = (m ((c : Thread nD τ).loc main_arg1) : S16x8192x64.Idx → EReal)
          (ix3 (batch t) (⟨2 * n2.val + i.val / 64, by omega⟩ : Fin 8192) (⟨i.val % 64, by omega⟩ : Fin 64)) := by
  obtain ⟨-, ⟨e0, e1, e2⟩, -⟩ := idx_facts t
  unfold iblk
  rw [View.read_apply]
  show V m c main_v0 _ = _
  rw [V_k2]
  refine Eq.trans (congrArg (shapeCast S16x4096x128 (m ((c : Thread nD τ).loc main_arg1) : S16x8192x64.Idx → EReal)
    shapeCasts_S16x8192x64_S16x4096x128) ?_) (pair_rows_apply _ _ (batch t) n2 i)
  funext d; apply Fin.ext
  match d with
  | ⟨0, _⟩ => show win0_1.index t (0 : Fin 3) * 1 + 1 * 0 = t.val; omega
  | ⟨1, _⟩ => show win0_1.index t (1 : Fin 3) * 4096 + 1 * n2.val = n2.val; omega
  | ⟨2, _⟩ => show win0_1.index t (2 : Fin 3) * 128 + 1 * i.val = i.val; omega

/-- The second paired-row block likewise reads v. -/
theorem v_block (c : Dev nD) (t : Fin cfg0.N) (n2 : Fin 4096) (i : Fin 128) :
    (iblk m c 2 t : Vec Ideal S1x4096x128 .f32) (ix3 z1 n2 i)
      = (m ((c : Thread nD τ).loc main_arg2) : S16x8192x64.Idx → EReal)
          (ix3 (batch t) (⟨2 * n2.val + i.val / 64, by omega⟩ : Fin 8192) (⟨i.val % 64, by omega⟩ : Fin 64)) := by
  obtain ⟨-, -, ⟨e0, e1, e2⟩, -⟩ := idx_facts t
  unfold iblk
  rw [View.read_apply]
  show V m c main_v1 _ = _
  rw [V_v2]
  refine Eq.trans (congrArg (shapeCast S16x4096x128 (m ((c : Thread nD τ).loc main_arg2) : S16x8192x64.Idx → EReal)
    shapeCasts_S16x8192x64_S16x4096x128) ?_) (pair_rows_apply _ _ (batch t) n2 i)
  funext d; apply Fin.ext
  match d with
  | ⟨0, _⟩ => show win0_2.index t (0 : Fin 3) * 1 + 1 * 0 = t.val; omega
  | ⟨1, _⟩ => show win0_2.index t (1 : Fin 3) * 4096 + 1 * n2.val = n2.val; omega
  | ⟨2, _⟩ => show win0_2.index t (2 : Fin 3) * 128 + 1 * i.val = i.val; omega

/-- The low 64 columns of paired row n₂ are row 2n₂, the high 64 columns row 2n₂ + 1. -/
theorem low_cols {α : Type} (x : S16x8192x64.Idx → α) (b : Fin 16) (n2 : Fin 4096) (a : Fin 64) :
    x (ix3 b (⟨2 * n2.val + (⟨a.val, by omega⟩ : Fin 128).val / 64, by omega⟩ : Fin 8192)
        (⟨(⟨a.val, by omega⟩ : Fin 128).val % 64, by omega⟩ : Fin 64))
      = x (ix3 b (⟨2 * n2.val, by omega⟩ : Fin 8192) a) := by
  congr 1
  funext d; apply Fin.ext
  match d with
  | ⟨0, _⟩ => rfl
  | ⟨1, _⟩ => show 2 * n2.val + a.val / 64 = 2 * n2.val; omega
  | ⟨2, _⟩ => show a.val % 64 = a.val; omega

theorem high_cols {α : Type} (x : S16x8192x64.Idx → α) (b : Fin 16) (n2 : Fin 4096) (a : Fin 64) :
    x (ix3 b (⟨2 * n2.val + (⟨64 + a.val, by omega⟩ : Fin 128).val / 64, by omega⟩ : Fin 8192)
        (⟨(⟨64 + a.val, by omega⟩ : Fin 128).val % 64, by omega⟩ : Fin 64))
      = x (ix3 b (⟨2 * n2.val + 1, by omega⟩ : Fin 8192) a) := by
  congr 1
  funext d; apply Fin.ext
  match d with
  | ⟨0, _⟩ => rfl
  | ⟨1, _⟩ => show 2 * n2.val + (64 + a.val) / 64 = 2 * n2.val + 1; omega
  | ⟨2, _⟩ => show (64 + a.val) % 64 = a.val; omega

/-! ## What a point writes back, and the array after the run -/

/-- The specification of the three argument arrays as launched. -/
abbrev result (c : Dev nD) : S16x8192x64.Idx → EReal :=
  attn (m ((c : Thread nD τ).loc main_arg0)) (m ((c : Thread nD τ).loc main_arg1)) (m ((c : Thread nD τ).loc main_arg2))

/-- Point t writes back batch t of the specification. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1x4096x128) hz, View.ld_unit_zero (S := S1x64x8192) hz]
  obtain ⟨-, -, -, ⟨e0, e1, e2⟩⟩ := idx_facts t
  funext j
  obtain ⟨z, n, cc, rfl⟩ : ∃ (z : Fin 1) (n : Fin 8192) (cc : Fin 64), j = ix3 z n cc := ⟨j 0, j 1, j 2, eq_ix3 j⟩
  show k0_pay1 (iblk m c 1 t) (iblk m c 2 t) (iblk m c 0 t) (ix3 z n cc) = result m c (((cfg0.win 3).blk t).view.emb (ix3 z n cc))
  refine (pay_at (m ((c : Thread nD τ).loc main_arg0)) (m ((c : Thread nD τ).loc main_arg1)) (m ((c : Thread nD τ).loc main_arg2))
    (batch t) (iblk m c 0 t) (iblk m c 1 t) (iblk m c 2 t) (q_block m c t)
    (fun n2 a => (k_block m c t n2 _).trans (low_cols _ _ n2 a))
    (fun n2 a => (k_block m c t n2 _).trans (high_cols _ _ n2 a))
    (fun n2 a => (v_block m c t n2 _).trans (low_cols _ _ n2 a))
    (fun n2 a => (v_block m c t n2 _).trans (high_cols _ _ n2 a)) z n cc).trans ?_
  refine congrArg (result m c) ?_
  funext d; apply Fin.ext
  have hz0 : z.val = 0 := by omega
  match d with
  | ⟨0, _⟩ => show t.val = win0_3.index t (0 : Fin 3) * 1 + 1 * z.val; omega
  | ⟨1, _⟩ => show n.val = win0_3.index t (1 : Fin 3) * 8192 + 1 * n.val; omega
  | ⟨2, _⟩ => show cc.val = win0_3.index t (2 : Fin 3) * 64 + 1 * cc.val; omega

/-- An index is in point t's block iff each coordinate is in the block's range on its axis. -/
theorem mem_blk (t : Fin cfg0.N) (i : S16x8192x64.Idx) :
    i ∈ ((cfg0.win 3).blk t).view.set ↔ ∀ a : Fin 3, win0_3.index t a * S1x8192x64.size a ≤ (i a).val
      ∧ (i a).val < win0_3.index t a * S1x8192x64.size a + S1x8192x64.size a := by
  show i ∈ ((View.whole main_v2).slice (win0_3.rect t)).set ↔ _
  rw [View.set_slice_whole, Rect.mem_set_unit]
  exact Iff.rfl

/-- Every index of the result array is in the block of the point numbered by its batch. -/
theorem cover (i : S16x8192x64.Idx) :
    ∃ t : Fin cfg0.N, (cfg0.win 3).flush t = true ∧ i ∈ ((cfg0.win 3).blk t).view.set := by
  have h0 : (i 0).val < 16 := (i 0).isLt
  have h1 : (i 1).val < 8192 := (i 1).isLt
  have h2 : (i 2).val < 64 := (i 2).isLt
  refine ⟨⟨(i 0).val, lt_of_lt_of_eq h0 N_0.symm⟩, flush0_3 _, ?_⟩
  rw [mem_blk]
  obtain ⟨-, -, -, ⟨e0, e1, e2⟩⟩ := idx_facts ⟨(i 0).val, lt_of_lt_of_eq h0 N_0.symm⟩
  have e0' : win0_3.index ⟨(i 0).val, lt_of_lt_of_eq h0 N_0.symm⟩ (0 : Fin 3) = (i 0).val := e0
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 8192 ≤ (i 1).val ∧ (i 1).val < win0_3.index _ (1 : Fin 3) * 8192 + 8192
    rw [e1]; omega
  | ⟨2, _⟩ =>
    show win0_3.index _ (2 : Fin 3) * 64 ≤ (i 2).val ∧ (i 2).val < win0_3.index _ (2 : Fin 3) * 64 + 64
    rw [e2]; omega

/-- The result array after the run is the specification. -/
theorem final (c : Dev nD) : (dats m 0 c).arrAt 3 cfg0.N = result m c :=
  (dats m 0 c).arrAt_eq_of_cover 3 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.LinAttn.Blocks

end
-- ==== Proof.lean ====
/-
  Linear attention without a softmax, out[b, n, c] = ∑ₐ q[b, a, n] · ∑ₙ' k[b, n', a] · v[b, n', c], computed two ways.

  The reference forms ktv[b] = k[b]ᵀ · v[b] over all 8192 rows and then q[b]ᵀ · ktv[b]. The kernel, one batch per
  grid point, reads k[b] and v[b] two rows at a time ([4096, 128]: rows 2n₂ and 2n₂ + 1 side by side), multiplies
  the two paired-row blocks into a 128×128 matrix, and adds that matrix's two diagonal 64×64 blocks — the even
  rows' and the odd rows' shares of ktv[b] — before the same second product. On exact values the two agree
  because a sum over all rows is the even rows' sum plus the odd rows' sum; that is commutativity and
  associativity of + only, so the inputs' finiteness is never used.

  Spec.lean states the function and the sum law; RefValue.lean reads the reference as that function;
  Payload.lean reads what one grid point stores; Blocks.lean carries the blocks to the whole array and gives
  the kernel's run. The three frames are the generated ones (the reference's is its run with the result
  dropped); no operation of the kernel was rewritten for the exact reading, so there is nothing to preserve.
-/
import proofs.«103025_j2130303779058_2_alg».proof.Defs
import proofs.«103025_j2130303779058_2_alg».proof.Proof.Gen.Kernel
import proofs.«103025_j2130303779058_2_alg».proof.Proof.Gen.Kernel.Skeleton
import proofs.«103025_j2130303779058_2_alg».proof.Proof.Gen.Kernel.Launch
import proofs.«103025_j2130303779058_2_alg».proof.Proof.Gen.Kernel.Points
import proofs.«103025_j2130303779058_2_alg».proof.Proof.Gen.Kernel.Frame
import proofs.«103025_j2130303779058_2_alg».proof.Proof.Gen.KernelIdeal
import proofs.«103025_j2130303779058_2_alg».proof.Proof.Gen.KernelIdeal.Skeleton
import proofs.«103025_j2130303779058_2_alg».proof.Proof.Gen.KernelIdeal.Launch
import proofs.«103025_j2130303779058_2_alg».proof.Proof.Gen.KernelIdeal.Points
import proofs.«103025_j2130303779058_2_alg».proof.Proof.Gen.KernelIdeal.Frame
import proofs.«103025_j2130303779058_2_alg».proof.Proof.Gen.ReferenceIdeal
import proofs.«103025_j2130303779058_2_alg».proof.Proof.Gen.Pre_finite_inputs
import proofs.«103025_j2130303779058_2_alg».proof.Proof.Gen.KernelIdeal.Value
import proofs.«103025_j2130303779058_2_alg».proof.Proof.Gen.ReferenceIdeal.Run
import proofs.«103025_j2130303779058_2_alg».proof.Proof.Gen.ReferenceIdeal.Read
import proofs.«103025_j2130303779058_2_alg».proof.Proof.RefValue
import proofs.«103025_j2130303779058_2_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the specification of the argument arrays, which agree. -/
theorem algebraic : Cert.algebraic_KernelIdeal_ReferenceIdeal := by
  intro m ρ m' ρ' _ hagree
  refine ⟨fun c => Cert.LinAttn.Blocks.result m c, Cert.LinAttn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.LinAttn.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
